-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128 : Shape := ⟨3, ![16, 128, 128]⟩
abbrev S20001x128 : Shape := ⟨2, ![20001, 128]⟩
abbrev S1x1x20001 : Shape := ⟨3, ![1, 1, 20001]⟩
abbrev S_ : Shape := ⟨0, ![]⟩

class Facts : Prop where
  bcast_S_S16x128x128 : S_.BroadcastsInDim S16x128x128 (![] : Fin 0 → Fin S16x128x128.rank)
  reducesTo_S16x128x128_S_d0_1_2 : S16x128x128.ReducesTo [0, 1, 2] S_
  h_S_ : 0 < S_.numel
  bcast_S_S20001x128 : S_.BroadcastsInDim S20001x128 (![] : Fin 0 → Fin S20001x128.rank)
  reducesTo_S20001x128_S_d0_1 : S20001x128.ReducesTo [0, 1] S_
  bcast_S_S1x1x20001 : S_.BroadcastsInDim S1x1x20001 (![] : Fin 0 → Fin S1x1x20001.rank)
  reducesTo_S1x1x20001_S_d0_1_2 : S1x1x20001.ReducesTo [0, 1, 2] S_

variable [Facts]

def fn {F : FTy → Type} [FloatOps F] (main_arg0 : FVec F S16x128x128 .f32) (main_arg1 : FVec F S20001x128 .f32) (main_arg2 : FVec F S1x1x20001 .f32) : IVec S_ 1 :=
  let main_v0 : FVec F S16x128x128 .f32 := Host.absf main_arg0
  let main_cst : FVec F S_ .f32 := constant S_ .f32 0x7F800000#32
  let main_v1 : FVec F S16x128x128 .f32 := broadcastInDim S16x128x128 ![] bcast_S_S16x128x128 main_cst
  let main_v2 : IVec S16x128x128 1 := cmpf .olt main_v0 main_v1
  let main_c : IVec S_ 1 := constantI S_ 1 1#1
  let main_v3 : IVec S_ 1 := (fun x v => Host.reduce IntOp.andi x v reducesTo_S16x128x128_S_d0_1_2 h_S_) main_v2 main_c
  let main_v4 : FVec F S20001x128 .f32 := Host.absf main_arg1
  let main_cst_0 : FVec F S_ .f32 := constant S_ .f32 0x7F800000#32
  let main_v5 : FVec F S20001x128 .f32 := broadcastInDim S20001x128 ![] bcast_S_S20001x128 main_cst_0
  let main_v6 : IVec S20001x128 1 := cmpf .olt main_v4 main_v5
  let main_c_1 : IVec S_ 1 := constantI S_ 1 1#1
  let main_v7 : IVec S_ 1 := (fun x v => Host.reduce IntOp.andi x v reducesTo_S20001x128_S_d0_1 h_S_) main_v6 main_c_1
  let main_v8 : IVec S_ 1 := andi main_v3 main_v7
  let main_v9 : FVec F S1x1x20001 .f32 := Host.absf main_arg2
  let main_cst_2 : FVec F S_ .f32 := constant S_ .f32 0x7F800000#32
  let main_v10 : FVec F S1x1x20001 .f32 := broadcastInDim S1x1x20001 ![] bcast_S_S1x1x20001 main_cst_2
  let main_v11 : IVec S1x1x20001 1 := cmpf .olt main_v9 main_v10
  let main_c_3 : IVec S_ 1 := constantI S_ 1 1#1
  let main_v12 : IVec S_ 1 := (fun x v => Host.reduce IntOp.andi x v reducesTo_S1x1x20001_S_d0_1_2 h_S_) main_v11 main_c_3
  let main_v13 : IVec S_ 1 := andi main_v8 main_v12
  main_v13
-- ==== Kernel.lean ====
abbrev S16x128x128 : Shape := ⟨3, ![16, 128, 128]⟩
abbrev S20001x128 : Shape := ⟨2, ![20001, 128]⟩
abbrev S1x1x20001 : Shape := ⟨3, ![1, 1, 20001]⟩
abbrev S2048x128 : Shape := ⟨2, ![2048, 128]⟩
abbrev S1x20001 : Shape := ⟨2, ![1, 20001]⟩
abbrev S_ : Shape := ⟨0, ![]⟩
abbrev S20001 : Shape := ⟨1, ![20001]⟩
abbrev S20001x1 : Shape := ⟨2, ![20001, 1]⟩
abbrev S2048x20001 : Shape := ⟨2, ![2048, 20001]⟩
abbrev S512x128 : Shape := ⟨2, ![512, 128]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S16x128x20001 : Shape := ⟨3, ![16, 128, 20001]⟩

abbrev nBuf : Space → Nat
  | .hbm => 12
  | .vmem => 10
  | .smem => 0
  | _ => 0

abbrev bufTy : (tb : Table) → Fin (tcTables nBuf tb) → BufTy
  | .hbm, ⟨0, _⟩ => ⟨S16x128x128, .f32⟩
  | .hbm, ⟨1, _⟩ => ⟨S20001x128, .f32⟩
  | .hbm, ⟨2, _⟩ => ⟨S1x1x20001, .f32⟩
  | .hbm, ⟨3, _⟩ => ⟨S2048x128, .f32⟩
  | .hbm, ⟨4, _⟩ => ⟨S1x20001, .f32⟩
  | .hbm, ⟨5, _⟩ => ⟨S20001x128, .f32⟩
  | .hbm, ⟨6, _⟩ => ⟨S_, .f32⟩
  | .hbm, ⟨7, _⟩ => ⟨S20001, .f32⟩
  | .hbm, ⟨8, _⟩ => ⟨S20001x1, .f32⟩
  | .hbm, ⟨9, _⟩ => ⟨S1x20001, .f32⟩
  | .hbm, ⟨10, _⟩ => ⟨S2048x20001, .f32⟩
  | .hbm, ⟨11, _⟩ => ⟨S16x128x20001, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x128x128_S2048x128 : S16x128x128.ShapeCasts S2048x128
  shapeCasts_S1x1x20001_S1x20001 : S1x1x20001.ShapeCasts S1x20001
  reducesTo_S20001x128_S20001_d1 : S20001x128.ReducesTo [1] S20001
  h_S_ : 0 < S_.numel
  bcast_S20001_S20001x1_0 : S20001.BroadcastsInDim S20001x1 (![0] : Fin 1 → Fin S20001x1.rank)
  shapeCasts_S20001x1_S1x20001 : S20001x1.ShapeCasts S1x20001
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  reduces_S512x128_S512 : S512x128.Reduces [1] S512
  shapeCasts_S512_S512x1 : S512.ShapeCasts S512x1
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S2048x20001_S16x128x20001 : S2048x20001.ShapeCasts S16x128x20001
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S20001x128.size a
  hwx0_1 : ∀ i : grid0.Coords, EltTy.bits .f32 = 32 ∨ (Rect.unit (s := S20001x128) (fun a => cc0_transform_1 i a * S2048x128.size a) (fun a => (Pipeline.Clip.of (cc0_transform_1 i a) (S2048x128.size a) (S20001x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S20001x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x20001.size a
  hwx0_2 : ∀ i : grid0.Coords, EltTy.bits .f32 = 32 ∨ (Rect.unit (s := S1x20001) (fun a => cc0_transform_2 i a * S1x2048.size a) (fun a => (Pipeline.Clip.of (cc0_transform_2 i a) (S1x2048.size a) (S1x20001.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x20001.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2048.size a < S1x20001.size a
  hwx0_3 : ∀ i : grid0.Coords, EltTy.bits .f32 = 32 ∨ (Rect.unit (s := S1x20001) (fun a => cc0_transform_3 i a * S1x2048.size a) (fun a => (Pipeline.Clip.of (cc0_transform_3 i a) (S1x2048.size a) (S1x20001.size a)).extent (S1x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x2048) (fun _ => 0) (fun a => (Pipeline.Clip.of (cc0_transform_3 i a) (S1x2048.size a) (S1x20001.size a)).extent (S1x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x2048.size a < S2048x20001.size a
  hwx0_4 : ∀ i : grid0.Coords, EltTy.bits .f32 = 32 ∨ (Rect.unit (s := S2048x20001) (fun a => cc0_transform_4 i a * S512x2048.size a) (fun a => (Pipeline.Clip.of (cc0_transform_4 i a) (S512x2048.size a) (S2048x20001.size a)).extent (S512x2048.size a)) fun a => Pipeline.Clip.inb (Pipeline.Clip.ok_of (hstart0_4 i a))).WholeWords (EltTy.packing .f32)
  hwxs0_4 : ∀ i : grid0.Coords, EltTy.bits .f32 = 32 ∨ (Rect.unit (s := S512x2048) (fun _ => 0) (fun a => (Pipeline.Clip.of (cc0_transform_4 i a) (S512x2048.size a) (S2048x20001.size a)).extent (S512x2048.size a)) fun a => (Nat.zero_add _).trans_le (Pipeline.Clip.extent_le (Pipeline.Clip.ok_of (hstart0_4 i a)))).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v5) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x2048.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v6) S512x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x128x128 : Shape := ⟨3, ![16, 128, 128]⟩
abbrev S20001x128 : Shape := ⟨2, ![20001, 128]⟩
abbrev S1x1x20001 : Shape := ⟨3, ![1, 1, 20001]⟩
abbrev S_ : Shape := ⟨0, ![]⟩
abbrev S16x128 : Shape := ⟨2, ![16, 128]⟩
abbrev S16x128x1 : Shape := ⟨3, ![16, 128, 1]⟩
abbrev S20001 : Shape := ⟨1, ![20001]⟩
abbrev S16x128x20001 : Shape := ⟨3, ![16, 128, 20001]⟩

abbrev nBuf : Space → Nat
  | .hbm => 26
  | .vmem => 0
  | .smem => 0
  | _ => 0

abbrev bufTy : (tb : Table) → Fin (tcTables nBuf tb) → BufTy
  | .hbm, ⟨0, _⟩ => ⟨S16x128x128, .f32⟩
  | .hbm, ⟨1, _⟩ => ⟨S20001x128, .f32⟩
  | .hbm, ⟨2, _⟩ => ⟨S1x1x20001, .f32⟩
  | .hbm, ⟨3, _⟩ => ⟨S16x128x128, .f32⟩
  | .hbm, ⟨4, _⟩ => ⟨S_, .f32⟩
  | .hbm, ⟨5, _⟩ => ⟨S16x128, .f32⟩
  | .hbm, ⟨6, _⟩ => ⟨S16x128x1, .f32⟩
  | .hbm, ⟨7, _⟩ => ⟨S20001x128, .f32⟩
  | .hbm, ⟨8, _⟩ => ⟨S_, .f32⟩
  | .hbm, ⟨9, _⟩ => ⟨S20001, .f32⟩
  | .hbm, ⟨10, _⟩ => ⟨S16x128x20001, .f32⟩
  | .hbm, ⟨11, _⟩ => ⟨S1x1x20001, .f32⟩
  | .hbm, ⟨12, _⟩ => ⟨S16x128x20001, .f32⟩
  | .hbm, ⟨13, _⟩ => ⟨S16x128x20001, .f32⟩
  | .hbm, ⟨14, _⟩ => ⟨S16x128x20001, .f32⟩
  | .hbm, ⟨15, _⟩ => ⟨S_, .f32⟩
  | .hbm, ⟨16, _⟩ => ⟨S16x128x20001, .f32⟩
  | .hbm, ⟨17, _⟩ => ⟨S16x128x20001, .f32⟩
  | .hbm, ⟨18, _⟩ => ⟨S16x128x20001, .f32⟩
  | .hbm, ⟨19, _⟩ => ⟨S_, .f32⟩
  | .hbm, ⟨20, _⟩ => ⟨S16x128x20001, .f32⟩
  | .hbm, ⟨21, _⟩ => ⟨S16x128x20001, .f32⟩
  | .hbm, ⟨22, _⟩ => ⟨S16x128x20001, .f32⟩
  | .hbm, ⟨23, _⟩ => ⟨S16x128x20001, .f32⟩
  | .hbm, ⟨24, _⟩ => ⟨S16x128x20001, .f32⟩
  | .hbm, ⟨25, _⟩ => ⟨S16x128x20001, .f32⟩
  | _, _ => ⟨S16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S16x128x128_S16x128_d2 : S16x128x128.ReducesTo [2] S16x128
  h_S_ : 0 < S_.numel
  bcast_S16x128_S16x128x1_0_1 : S16x128.BroadcastsInDim S16x128x1 (![0, 1] : Fin 2 → Fin S16x128x1.rank)
  reducesTo_S20001x128_S20001_d1 : S20001x128.ReducesTo [1] S20001
  bcast_S20001_S1x1x20001_2 : S20001.BroadcastsInDim S1x1x20001 (![2] : Fin 1 → Fin S1x1x20001.rank)
  bcast_S16x128x1_S16x128x20001_0_1_2 : S16x128x1.BroadcastsInDim S16x128x20001 (![0, 1, 2] : Fin 3 → Fin S16x128x20001.rank)
  bcast_S1x1x20001_S16x128x20001_0_1_2 : S1x1x20001.BroadcastsInDim S16x128x20001 (![0, 1, 2] : Fin 3 → Fin S16x128x20001.rank)
  bcast_S_S16x128x20001 : S_.BroadcastsInDim S16x128x20001 (![] : Fin 0 → Fin S16x128x20001.rank)
  dot_S16x128x128_S20001x128_S16x128x20001_2_1_01_0_n_n_wf : DotDims.WF S16x128x128 S20001x128 S16x128x20001 [2] [1] [0, 1] [0] [] []

variable [Facts₀]

def dot_S16x128x128_S20001x128_S16x128x20001_2_1_01_0_n_n : DotDims S16x128x128 S20001x128 S16x128x20001 where
  lhsContracting := [2]
  rhsContracting := [1]
  lhsNonContracting := [0, 1]
  rhsNonContracting := [0]
  lhsBatch := []
  rhsBatch := []
  wf := dot_S16x128x128_S20001x128_S16x128x20001_2_1_01_0_n_n_wf

class Facts : Prop extends Facts₀ where

variable [Facts]
-- ==== Proof.KBody.lean ====
/-
  The kernel body as a step of the pipeline, at any float instance.

  The body loads its four input staging buffers whole — the query block [512, 128], the table block [2048, 128],
  the row of squared norms [1, 2048] and the bias row [1, 2048] —, computes one [512, 2048] block and stores it
  whole into the output's staging buffer. So after the body the inputs' buffers hold what they held and the
  output's holds ONE pure function of the four, whatever it held before (the body also loads the output buffer
  once, and uses nothing of what it read).

  The table, the norms, the bias and the output are windows whose last block overhangs its array: past the
  array's end a staging buffer holds words nothing names. The body computes on them all the same; what it leaves
  in the output buffer there is never written back. This file states the body's effect on WHOLE buffers at
  arbitrary contents, which is all the launch needs; which entries of the output depend on which entries of the
  inputs is a statement about the arithmetic and lives with it.
-/
import proofs.«172519_j3384434229585_1_alg».proof.Proof.Gen.Kernel.Frame
import proofs.«172519_j3384434229585_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each is its buffer, whole -/

abbrev rQ : Rect S512x128 := Rect.unit (s := S512x128) ![0, 0] S512x128.size inb_S512x128_S512x128_0_0
abbrev rT : Rect S2048x128 := Rect.unit (s := S2048x128) ![0, 0] S2048x128.size inb_S2048x128_S2048x128_0_0
abbrev rR : Rect S1x2048 := Rect.unit (s := S1x2048) ![0, 0] S1x2048.size inb_S1x2048_S1x2048_0_0
abbrev rO : Rect S512x2048 := Rect.unit (s := S512x2048) ![0, 0] S512x2048.size inb_S512x2048_S512x2048_0_0

/-- What the output's staging buffer holds after the body, from what the four input buffers hold: its one
    store, whole, of the body's arithmetic over the four whole loads. -/
def outBlk (x0 : Vec F S512x128 .f32) (x1 : Vec F S2048x128 .f32) (x2 x3 : Vec F S1x2048 .f32) : Vec F S512x2048 .f32 :=
  View.canon [⟨rO, k0_pay1 (View.ld x0 rQ) (View.ld x1 rT) (View.ld x2 rR) (View.ld x3 rR)⟩]

/-- The one store covers the buffer. -/
theorem cover_out (p0 : Vec F S512x2048 .f32) (y : S512x2048.Idx) :
    ∃ pc ∈ ([⟨rO, p0⟩] : List (View.Piece (Elt F) S512x2048 .f32)), y ∈ pc.1.set :=
  View.cover_of_tiled [⟨rO, p0⟩] S512x2048.size (by rfl) y

theorem zero_off : (![0, 0] : Fin 2 → Nat) = fun _ => 0 := funext fun a => by fin_cases a <;> rfl

/-- Whole loads read the contents and the whole store leaves the payload: the output buffer holds the body's
    arithmetic of the four input buffers' contents. -/
theorem outBlk_eq (x0 : Vec F S512x128 .f32) (x1 : Vec F S2048x128 .f32) (x2 x3 : Vec F S1x2048 .f32) :
    outBlk x0 x1 x2 x3 = k0_pay1 x0 x1 x2 x3 := by
  unfold outBlk
  rw [View.canon_unit_zero zero_off]
  simp only [View.ld_unit_zero (S := S512x128) zero_off, View.ld_unit_zero (S := S2048x128) zero_off,
    View.ld_unit_zero (S := S1x2048) zero_off]

/-! ## The body's triple -/

set_option maxHeartbeats 2000000 in
/-- The body on whole staging memrefs, the inputs' at contents `x0 … x3` and the output's at anything, runs to the
    continuation with the inputs' as they were and the output's at `outBlk` of them. -/
theorem sound_kernel (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S512x2048 .f32) (harg6 : arg6.IsWhole)
    (x0 : Vec F S512x128 .f32) (x1 : Vec F S2048x128 .f32) (x2 x3 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outBlk x0 x1 x2 x3)) -∗ K ⟨⟩))
      ⊢ wp frame (wpE (defs₀ (F := F)) Variants.none c none) E
          (cc0__l2_knn_kernel i arg2 harg2 arg3 harg3 arg4 harg4 arg5 harg5 arg6 harg6) K := by
  simp only [cc0__l2_knn_kernel_eq_skeleton]; unfold cc0__l2_knn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Body

end
-- ==== Proof.KData.lean ====
/-
  The pipeline's proof data, and the frame, at any float instance.

  Grid point t = (i, j), i < 4, j < 10. The query window's block is rows 512·i … of the flat query matrix and tiles
  it; it is fetched when i changes and found in place otherwise. The table's block is rows 2048·j … of the table,
  the norms' and the bias's blocks are columns 2048·j … of their rows, the output's block is rows 512·i …, columns
  2048·j … of the flat result: 20001 = 9·2048 + 1569, so at j = 9 these four blocks overhang their arrays and their
  transfers are cut to the 1569 rows (columns) inside. A fetch so cut first overwrites the whole staging buffer
  with words nothing names and then lands the part inside the array; so before the body such a buffer holds its
  block on the part inside and SOME words d elsewhere, and what is said of it after the body is said on the part
  inside only.

  After the body: an input's buffer holds what it held; we name it as its block filled out with the zero word
  (any filler would do: only the part inside the array is ever compared). The output's buffer holds the body's
  arithmetic of the four input buffers.

  For the frame nothing needs to be known of the output's contents: this file runs the program with the output
  window forgotten (handed to the body at anything, taken back at anything) and reads off that the three argument
  arrays end as they began — the table is an input window's array, never written; the queries and the bias are
  read only through reshaped copies and are touched by nothing.
-/
import proofs.«172519_j3384434229585_1_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after the body -/

/-- The table's block at point `t`, filled out past the table's end with the zero word. -/
def blkT (c : Dev nD) (t : Fin cfg0.N) : S2048x128.Idx → Elt F .f32 :=
  win0_1.fill (grid0.coords t) (fun _ => Scalar.ofBits .f32 0#32) (iblk m c 1 t)
/-- The squared norms' block, likewise. -/
def blkN (c : Dev nD) (t : Fin cfg0.N) : S1x2048.Idx → Elt F .f32 :=
  win0_2.fill (grid0.coords t) (fun _ => Scalar.ofBits .f32 0#32) (iblk m c 2 t)
/-- The bias's block, likewise. -/
def blkB (c : Dev nD) (t : Fin cfg0.N) : S1x2048.Idx → Elt F .f32 :=
  win0_3.fill (grid0.coords t) (fun _ => Scalar.ofBits .f32 0#32) (iblk m c 3 t)
/-- The output's block: the body's arithmetic of the four. -/
def blkO (c : Dev nD) (t : Fin cfg0.N) : S512x2048.Idx → Elt F .f32 :=
  outBlk (iblk m c 0 t) (blkT m c t) (blkN m c t) (blkB m c t)

/-- The proof data of the one pipeline on core `c`: the arrays as the region finds them; after the body each buffer
    as above; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blkT m c t
    | ⟨2, _⟩ => blkN m c t
    | ⟨3, _⟩ => blkB m c t
    | ⟨4, _⟩ => blkO m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blkT m c t := by dsimp only [dats]
theorem after0_2 (c : Dev nD) (t : Fin cfg0.N) : (dats m 0 c).after 2 t = blkN m c t := by dsimp only [dats]
theorem after0_3 (c : Dev nD) (t : Fin cfg0.N) : (dats m 0 c).after 3 t = blkB m c t := by dsimp only [dats]
theorem after0_4 (c : Dev nD) (t : Fin cfg0.N) : (dats m 0 c).after 4 t = blkO m c t := by dsimp only [dats]

/-! ## What the buffers hold before the body -/

/-- The query block is in place at every point, fetched there or not. -/
theorem before0_0 (c : Dev nD) (t : Fin cfg0.N) (d) : (dats m 0 c).before 0 t d = iblk m c 0 t :=
  before0_0_of m (dats m 0 c) (A_eq m c 0) (after0_0 m c) t d

/-- The table, the norms and the bias are fetched at every point: the block on the part inside the array, `d`
    elsewhere. -/
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]

/-- The output is written back at every point: its buffer is fresh at every point. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-- An input's zero-filled block, cut back to the part inside the array, is the block. -/
theorem cut_blkT (c : Dev nD) (t : Fin cfg0.N) : win0_1.cut (grid0.coords t) (blkT m c t) = iblk m c 1 t :=
  win0_1.cut_fill _ _ _
theorem cut_blkN (c : Dev nD) (t : Fin cfg0.N) : win0_2.cut (grid0.coords t) (blkN m c t) = iblk m c 2 t :=
  win0_2.cut_fill _ _ _
theorem cut_blkB (c : Dev nD) (t : Fin cfg0.N) : win0_3.cut (grid0.coords t) (blkB m c t) = iblk m c 3 t :=
  win0_3.cut_fill _ _ _

/-! ## The body obligation with the output forgotten -/

/-- The output window, and no other, is forgotten. -/
abbrev forgets : Fin 5 → Bool := fun | 0 => false | 1 => false | 2 => false | 3 => false | 4 => true | ⟨_ + 5, h⟩ => absurd h (Nat.not_lt.2 (Nat.le_add_left _ _))

/-- What the body is called with at point `t`, the output's buffer at anything, -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the cut inputs stated on the part inside their arrays, the output's buffer at anything. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ X, owns (c : Thread nD τ) (st0_4 t) fullShare X))

/-- The body at any point, the output forgotten. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%X4, H4⟩⟩
  iapply (sound_kernel c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (blkT m c t)))
    rw [cut_blkT]
  isplitl [H2]
  · iexists d2
    change _ ⊢ owns (c : Thread nD τ) (st0_2 t) fullShare (win0_2.fill (grid0.coords t) d2 (win0_2.cut (grid0.coords t) (blkN m c t)))
    rw [cut_blkN]
  isplitl [H3]
  · iexists d3
    change _ ⊢ owns (c : Thread nD τ) (st0_3 t) fullShare (win0_3.fill (grid0.coords t) d3 (win0_3.cut (grid0.coords t) (blkB m c t)))
    rw [cut_blkB]
  · iexists _; iexact H4

/-- The library's body obligation, the output window forgotten, at every point. -/
theorem body_obligationF (c : Dev nD) :
    BodyObligationLoose (dats (F := F) m 0 c) (defs₀ (F := F)) Variants.none () Set.univ forgets := fun t => by
  rw [bigSep_W0, bigSep_W0]
  exact sound_bodyF m c t

end Cert.Kernel.Body

end
-- ==== Proof.KFrameF.lean ====
/-
  The program's run with the output window forgotten, and the frame.

  After the region the program reshapes the flat result into the final one: that line writes the final result's
  buffer and nothing else, so of that one buffer the run says nothing, and every other buffer that is no window's
  array ends as the region found it. The table is an input window's array: it is never written back, so it ends
  as the region found it too. Each argument array is as launched when the region is entered (no host line before
  the region writes an argument) — hence the frame.
-/
import proofs.«172519_j3384434229585_1_alg».proof.Proof.KData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The one buffer the line after the region writes: the final result. -/
abbrev T0 : Finset (Ref sig .tc) := {main_v7}

/-- The line after the region writes the final result's buffer only. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra hne
  exact StableHlo.devRef_ne_of_ne (fun e => hne (by rw [e]; exact Finset.mem_singleton_self _)) hb

set_option backward.isDefEq.respectTransparency.types false in
/-- For any values, from any memory with zero counters: every weakly fair execution of the program terminates,
    every input window's array ends as the region found it, nothing is said of the output window's array nor of
    the final result's buffer, and every other unscoped buffer ends as the region found it. -/
theorem run_mainF : θ_run defs (onTc (τ := τ) (main (F := F))) (s₀ m ρ)
    (Pipeline.RDat.FramePostR (cfgs 0) (fun c => (dats m 0 c).toRForget forgets) T0 (V m)) :=
  Pipeline.RDat.θ_run_frame_around_T cfgs (0 : Fin 1) launch0 defs₀ Variants.none (fun c => (dats m 0 c).toRForget forgets) T0 m ρ main
    (hbody := fun c => (body_obligationF m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME, at any float instance: the program terminates, nothing faults, and the three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans
        (V_main_arg0 m c),
      (by
        have h1 := (h c).1 1
        rw [Pipeline.RDat.ArrAt_in _ 1 rfl] at h1
        exact h1.trans ((A_eq m c 1).trans (V_main_arg1 m c))),
      ((h c).2 main_arg2 (Finset.mem_sdiff.mpr ⟨Pipeline.mem_restRefs_of main_arg2 (by decide) (by decide), by decide⟩)).trans
        (V_main_arg2 m c)⟩) (run_mainF m ρ)

end Cert.Kernel.Body

end
-- ==== Proof.Body.lean ====
/-
  The kernel body as a step of the pipeline, at any float instance.

  The body loads its four input staging buffers whole — the query block [512, 128], the table block [2048, 128],
  the row of squared norms [1, 2048] and the bias row [1, 2048] —, computes one [512, 2048] block and stores it
  whole into the output's staging buffer. So after the body the inputs' buffers hold what they held and the
  output's holds ONE pure function of the four, whatever it held before (the body also loads the output buffer
  once, and uses nothing of what it read).

  The table, the norms, the bias and the output are windows whose last block overhangs its array: past the
  array's end a staging buffer holds words nothing names. The body computes on them all the same; what it leaves
  in the output buffer there is never written back. This file states the body's effect on WHOLE buffers at
  arbitrary contents, which is all the launch needs; which entries of the output depend on which entries of the
  inputs is a statement about the arithmetic and lives with it.
-/
import proofs.«172519_j3384434229585_1_alg».proof.Proof.Gen.KernelIdeal.Frame
import proofs.«172519_j3384434229585_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each is its buffer, whole -/

abbrev rQ : Rect S512x128 := Rect.unit (s := S512x128) ![0, 0] S512x128.size inb_S512x128_S512x128_0_0
abbrev rT : Rect S2048x128 := Rect.unit (s := S2048x128) ![0, 0] S2048x128.size inb_S2048x128_S2048x128_0_0
abbrev rR : Rect S1x2048 := Rect.unit (s := S1x2048) ![0, 0] S1x2048.size inb_S1x2048_S1x2048_0_0
abbrev rO : Rect S512x2048 := Rect.unit (s := S512x2048) ![0, 0] S512x2048.size inb_S512x2048_S512x2048_0_0

/-- What the output's staging buffer holds after the body, from what the four input buffers hold: its one
    store, whole, of the body's arithmetic over the four whole loads. -/
def outBlk (x0 : Vec F S512x128 .f32) (x1 : Vec F S2048x128 .f32) (x2 x3 : Vec F S1x2048 .f32) : Vec F S512x2048 .f32 :=
  View.canon [⟨rO, k0_pay1 (View.ld x0 rQ) (View.ld x1 rT) (View.ld x2 rR) (View.ld x3 rR)⟩]

/-- The one store covers the buffer. -/
theorem cover_out (p0 : Vec F S512x2048 .f32) (y : S512x2048.Idx) :
    ∃ pc ∈ ([⟨rO, p0⟩] : List (View.Piece (Elt F) S512x2048 .f32)), y ∈ pc.1.set :=
  View.cover_of_tiled [⟨rO, p0⟩] S512x2048.size (by rfl) y

theorem zero_off : (![0, 0] : Fin 2 → Nat) = fun _ => 0 := funext fun a => by fin_cases a <;> rfl

/-- Whole loads read the contents and the whole store leaves the payload: the output buffer holds the body's
    arithmetic of the four input buffers' contents. -/
theorem outBlk_eq (x0 : Vec F S512x128 .f32) (x1 : Vec F S2048x128 .f32) (x2 x3 : Vec F S1x2048 .f32) :
    outBlk x0 x1 x2 x3 = k0_pay1 x0 x1 x2 x3 := by
  unfold outBlk
  rw [View.canon_unit_zero zero_off]
  simp only [View.ld_unit_zero (S := S512x128) zero_off, View.ld_unit_zero (S := S2048x128) zero_off,
    View.ld_unit_zero (S := S1x2048) zero_off]

/-! ## The body's triple -/

set_option maxHeartbeats 2000000 in
/-- The body on whole staging memrefs, the inputs' at contents `x0 … x3` and the output's at anything, runs to the
    continuation with the inputs' as they were and the output's at `outBlk` of them. -/
theorem sound_kernel (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S512x2048 .f32) (harg6 : arg6.IsWhole)
    (x0 : Vec F S512x128 .f32) (x1 : Vec F S2048x128 .f32) (x2 x3 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outBlk x0 x1 x2 x3)) -∗ K ⟨⟩))
      ⊢ wp frame (wpE (defs₀ (F := F)) Variants.none c none) E
          (cc0__l2_knn_kernel i arg2 harg2 arg3 harg3 arg4 harg4 arg5 harg5 arg6 harg6) K := by
  simp only [cc0__l2_knn_kernel_eq_skeleton]; unfold cc0__l2_knn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Body

end
-- ==== Proof.Data.lean ====
/-
  The pipeline's proof data, and the frame, at any float instance.

  Grid point t = (i, j), i < 4, j < 10. The query window's block is rows 512·i … of the flat query matrix and tiles
  it; it is fetched when i changes and found in place otherwise. The table's block is rows 2048·j … of the table,
  the norms' and the bias's blocks are columns 2048·j … of their rows, the output's block is rows 512·i …, columns
  2048·j … of the flat result: 20001 = 9·2048 + 1569, so at j = 9 these four blocks overhang their arrays and their
  transfers are cut to the 1569 rows (columns) inside. A fetch so cut first overwrites the whole staging buffer
  with words nothing names and then lands the part inside the array; so before the body such a buffer holds its
  block on the part inside and SOME words d elsewhere, and what is said of it after the body is said on the part
  inside only.

  After the body: an input's buffer holds what it held; we name it as its block filled out with the zero word
  (any filler would do: only the part inside the array is ever compared). The output's buffer holds the body's
  arithmetic of the four input buffers.

  For the frame nothing needs to be known of the output's contents: this file runs the program with the output
  window forgotten (handed to the body at anything, taken back at anything) and reads off that the three argument
  arrays end as they began — the table is an input window's array, never written; the queries and the bias are
  read only through reshaped copies and are touched by nothing.
-/
import proofs.«172519_j3384434229585_1_alg».proof.Proof.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after the body -/

/-- The table's block at point `t`, filled out past the table's end with the zero word. -/
def blkT (c : Dev nD) (t : Fin cfg0.N) : S2048x128.Idx → Elt F .f32 :=
  win0_1.fill (grid0.coords t) (fun _ => Scalar.ofBits .f32 0#32) (iblk m c 1 t)
/-- The squared norms' block, likewise. -/
def blkN (c : Dev nD) (t : Fin cfg0.N) : S1x2048.Idx → Elt F .f32 :=
  win0_2.fill (grid0.coords t) (fun _ => Scalar.ofBits .f32 0#32) (iblk m c 2 t)
/-- The bias's block, likewise. -/
def blkB (c : Dev nD) (t : Fin cfg0.N) : S1x2048.Idx → Elt F .f32 :=
  win0_3.fill (grid0.coords t) (fun _ => Scalar.ofBits .f32 0#32) (iblk m c 3 t)
/-- The output's block: the body's arithmetic of the four. -/
def blkO (c : Dev nD) (t : Fin cfg0.N) : S512x2048.Idx → Elt F .f32 :=
  outBlk (iblk m c 0 t) (blkT m c t) (blkN m c t) (blkB m c t)

/-- The proof data of the one pipeline on core `c`: the arrays as the region finds them; after the body each buffer
    as above; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blkT m c t
    | ⟨2, _⟩ => blkN m c t
    | ⟨3, _⟩ => blkB m c t
    | ⟨4, _⟩ => blkO m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blkT m c t := by dsimp only [dats]
theorem after0_2 (c : Dev nD) (t : Fin cfg0.N) : (dats m 0 c).after 2 t = blkN m c t := by dsimp only [dats]
theorem after0_3 (c : Dev nD) (t : Fin cfg0.N) : (dats m 0 c).after 3 t = blkB m c t := by dsimp only [dats]
theorem after0_4 (c : Dev nD) (t : Fin cfg0.N) : (dats m 0 c).after 4 t = blkO m c t := by dsimp only [dats]

/-! ## What the buffers hold before the body -/

/-- The query block is in place at every point, fetched there or not. -/
theorem before0_0 (c : Dev nD) (t : Fin cfg0.N) (d) : (dats m 0 c).before 0 t d = iblk m c 0 t :=
  before0_0_of m (dats m 0 c) (A_eq m c 0) (after0_0 m c) t d

/-- The table, the norms and the bias are fetched at every point: the block on the part inside the array, `d`
    elsewhere. -/
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]

/-- The output is written back at every point: its buffer is fresh at every point. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-- An input's zero-filled block, cut back to the part inside the array, is the block. -/
theorem cut_blkT (c : Dev nD) (t : Fin cfg0.N) : win0_1.cut (grid0.coords t) (blkT m c t) = iblk m c 1 t :=
  win0_1.cut_fill _ _ _
theorem cut_blkN (c : Dev nD) (t : Fin cfg0.N) : win0_2.cut (grid0.coords t) (blkN m c t) = iblk m c 2 t :=
  win0_2.cut_fill _ _ _
theorem cut_blkB (c : Dev nD) (t : Fin cfg0.N) : win0_3.cut (grid0.coords t) (blkB m c t) = iblk m c 3 t :=
  win0_3.cut_fill _ _ _

/-! ## The body obligation with the output forgotten -/

/-- The output window, and no other, is forgotten. -/
abbrev forgets : Fin 5 → Bool := fun | 0 => false | 1 => false | 2 => false | 3 => false | 4 => true | ⟨_ + 5, h⟩ => absurd h (Nat.not_lt.2 (Nat.le_add_left _ _))

/-- What the body is called with at point `t`, the output's buffer at anything, -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the cut inputs stated on the part inside their arrays, the output's buffer at anything. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ X, owns (c : Thread nD τ) (st0_4 t) fullShare X))

/-- The body at any point, the output forgotten. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%X4, H4⟩⟩
  iapply (sound_kernel c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (blkT m c t)))
    rw [cut_blkT]
  isplitl [H2]
  · iexists d2
    change _ ⊢ owns (c : Thread nD τ) (st0_2 t) fullShare (win0_2.fill (grid0.coords t) d2 (win0_2.cut (grid0.coords t) (blkN m c t)))
    rw [cut_blkN]
  isplitl [H3]
  · iexists d3
    change _ ⊢ owns (c : Thread nD τ) (st0_3 t) fullShare (win0_3.fill (grid0.coords t) d3 (win0_3.cut (grid0.coords t) (blkB m c t)))
    rw [cut_blkB]
  · iexists _; iexact H4

/-- The library's body obligation, the output window forgotten, at every point. -/
theorem body_obligationF (c : Dev nD) :
    BodyObligationLoose (dats (F := F) m 0 c) (defs₀ (F := F)) Variants.none () Set.univ forgets := fun t => by
  rw [bigSep_W0, bigSep_W0]
  exact sound_bodyF m c t

end Cert.KernelIdeal.Body

end
-- ==== Proof.FrameF.lean ====
/-
  The program's run with the output window forgotten, and the frame.

  After the region the program reshapes the flat result into the final one: that line writes the final result's
  buffer and nothing else, so of that one buffer the run says nothing, and every other buffer that is no window's
  array ends as the region found it. The table is an input window's array: it is never written back, so it ends
  as the region found it too. Each argument array is as launched when the region is entered (no host line before
  the region writes an argument) — hence the frame.
-/
import proofs.«172519_j3384434229585_1_alg».proof.Proof.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The one buffer the line after the region writes: the final result. -/
abbrev T0 : Finset (Ref sig .tc) := {main_v7}

/-- The line after the region writes the final result's buffer only. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra hne
  exact StableHlo.devRef_ne_of_ne (fun e => hne (by rw [e]; exact Finset.mem_singleton_self _)) hb

set_option backward.isDefEq.respectTransparency.types false in
/-- For any values, from any memory with zero counters: every weakly fair execution of the program terminates,
    every input window's array ends as the region found it, nothing is said of the output window's array nor of
    the final result's buffer, and every other unscoped buffer ends as the region found it. -/
theorem run_mainF : θ_run defs (onTc (τ := τ) (main (F := F))) (s₀ m ρ)
    (Pipeline.RDat.FramePostR (cfgs 0) (fun c => (dats m 0 c).toRForget forgets) T0 (V m)) :=
  Pipeline.RDat.θ_run_frame_around_T cfgs (0 : Fin 1) launch0 defs₀ Variants.none (fun c => (dats m 0 c).toRForget forgets) T0 m ρ main
    (hbody := fun c => (body_obligationF m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME, at any float instance: the program terminates, nothing faults, and the three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans
        (V_main_arg0 m c),
      (by
        have h1 := (h c).1 1
        rw [Pipeline.RDat.ArrAt_in _ 1 rfl] at h1
        exact h1.trans ((A_eq m c 1).trans (V_main_arg1 m c))),
      ((h c).2 main_arg2 (Finset.mem_sdiff.mpr ⟨Pipeline.mem_restRefs_of main_arg2 (by decide) (by decide), by decide⟩)).trans
        (V_main_arg2 m c)⟩) (run_mainF m ρ)

end Cert.KernelIdeal.Body

end
-- ==== Proof.Spec.lean ====
/-
  The specification both programs are measured against, over the extended reals: the negated Euclidean distance
  from a query row to a table row, computed through the polarisation identity
      ‖x‖² + ‖e‖² − 2·⟨x, e⟩ ,
  clamped below at zero before the square root, plus a per-table-row bias. Nothing here mentions a program: the
  functions below are plain functions of rows, stated once so that the kernel's blocks, the kernel's array and the
  reference's result can all be compared with the same term. No law of this file needs finiteness: the two
  programs group the sums and the differences alike, so only "0 + s = s" and "0 − d = −d" are ever used, and both
  hold at the infinities too.
-/
import Idealize.ShloMosaic.PureOps.Ideal
import Idealize.ShloMosaic.Lib.ValueIdx

noncomputable section

namespace Cert.L2

open Idealize.ShloMosaic Idealize.ShloMosaic.ValueIdx

/-- The float word of 2.0, read exactly (the same word on both sides: never evaluated). -/
abbrev two : EReal := Ideal.ofBits .f32 0x40000000#32

/-- One entry of the result from a query row `xr`, a table row `er`, that table row's squared norm `esq` (handed
    in, because the kernel receives it as an operand) and the bias `b`:
    `−√(max(‖xr‖² + esq − 2·⟨xr, er⟩, 0)) + b`. -/
def entry (xr er : Fin 128 → EReal) (esq b : EReal) : EReal :=
  -(Ideal.sqrt (max (((∑ k : Fin 128, xr k * xr k) + esq) - two * ∑ k : Fin 128, xr k * er k) 0)) + b

/-- The squared norm of a table row. -/
def sqnorm (er : Fin 128 → EReal) : EReal := ∑ k : Fin 128, er k * er k

/-- The flat result, [2048, 20001], from the flat query matrix [2048, 128], the table [20001, 128], the row of
    squared norms [1, 20001] and the bias row [1, 20001]. -/
def flat (x2 : (⟨2, ![2048, 128]⟩ : Shape).Idx → EReal) (emb : (⟨2, ![20001, 128]⟩ : Shape).Idx → EReal)
    (esq1 b1 : (⟨2, ![1, 20001]⟩ : Shape).Idx → EReal) : (⟨2, ![2048, 20001]⟩ : Shape).Idx → EReal :=
  fun i => entry (fun k => x2 (ix2 (i 0) k)) (fun k => emb (ix2 (i 1) k)) (esq1 (ix2 0 (i 1))) (b1 (ix2 0 (i 1)))

theorem flat_ix2 (x2 : (⟨2, ![2048, 128]⟩ : Shape).Idx → EReal) (emb : (⟨2, ![20001, 128]⟩ : Shape).Idx → EReal)
    (esq1 b1 : (⟨2, ![1, 20001]⟩ : Shape).Idx → EReal) (r : Fin 2048) (v : Fin 20001) :
    flat x2 emb esq1 b1 (ix2 r v)
      = entry (fun k => x2 (ix2 r k)) (fun k => emb (ix2 v k)) (esq1 (ix2 0 v)) (b1 (ix2 0 v)) := rfl

/-- The result, [16, 128, 20001], from the arguments: queries [16, 128, 128], table [20001, 128], bias
    [1, 1, 20001]. -/
def G (x : (⟨3, ![16, 128, 128]⟩ : Shape).Idx → EReal) (emb : (⟨2, ![20001, 128]⟩ : Shape).Idx → EReal)
    (bias : (⟨3, ![1, 1, 20001]⟩ : Shape).Idx → EReal) : (⟨3, ![16, 128, 20001]⟩ : Shape).Idx → EReal :=
  fun i => entry (fun k => x (ix3 (i 0) (i 1) k)) (fun k => emb (ix2 (i 2) k))
    (sqnorm fun k => emb (ix2 (i 2) k)) (bias (ix3 0 0 (i 2)))

theorem G_ix3 (x : (⟨3, ![16, 128, 128]⟩ : Shape).Idx → EReal) (emb : (⟨2, ![20001, 128]⟩ : Shape).Idx → EReal)
    (bias : (⟨3, ![1, 1, 20001]⟩ : Shape).Idx → EReal) (b : Fin 16) (s : Fin 128) (v : Fin 20001) :
    G x emb bias (ix3 b s v)
      = entry (fun k => x (ix3 b s k)) (fun k => emb (ix2 v k)) (sqnorm fun k => emb (ix2 v k)) (bias (ix3 0 0 v)) := rfl

end Cert.L2

end
-- ==== Proof.LibBlockOps.lean ====
/-
  Block operations read at an index given by its coordinates: the keepdims column forms that a row reduction followed by
  a division of every row needs.  A column `[a, 1]` spread over `b` lanes reads its one entry of the row; a vector
  `[a]` recast as a column `[a, 1]` reads the vector's entry; the sum of an `[a, b]` array along its lanes, at row
  `p`, is the sum over the lane coordinate of the entries of row `p`.
-/
import Idealize.ShloMosaic.Lib.ValueLayout
import Idealize.ShloMosaic.PureOps.Ideal.Laws

noncomputable section

namespace Cert.BlockOps

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its lanes, read at row `p`: the sum over the lane coordinate
`k` of the entries `(p, k)`.  The accumulator's word is the zero word, and the fact about it is stated as the equation between
the two literal words. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = ∑ k : Fin b, src (ix2 p k)
  refine Finset.sum_congr rfl fun k _ => congrArg src (funext fun c => Fin.ext ?_)
  match c with
  | ⟨0, _⟩ => rfl
  | ⟨1, _⟩ => rfl

/-- A square root at an index is the square root of the element. -/
theorem sqrtf_apply {s : Shape} {φ : FTy} (x : FVec Ideal s φ) (i : s.Idx) : sqrt x i = Ideal.sqrt (x i) := rfl

/-- A reciprocal square root at an index is that of the element. -/
theorem rsqrtf_apply {s : Shape} {φ : FTy} (x : FVec Ideal s φ) (i : s.Idx) : rsqrt x i = Ideal.rsqrt (x i) := rfl

end Cert.BlockOps

end
-- ==== Proof.PayIdx.lean ====
/-
  The kernel body's stored block, read at one entry.  The body computes, for a block of 512 query rows and a block of
  2048 table rows, the squared norms of the query rows (a sum along the lanes), the matrix of inner products (a matrix
  product contracting the second axis of both operands), and from them, entry by entry,
      −√(max(‖x‖² + e − 2·⟨x, t⟩, 0)) + b ,
  where `e` and `b` are the entries of two row operands.  Read at the entry `(p, q)` this is the specification's
  `entry` of row `p` of the query block, row `q` of the table block and the entries `(0, q)` of the two row operands:
  the roundings to the narrow format are the identity on the extended reals, a sum started from the zero word is the
  sum, and `0 − d = −d`.
-/
import proofs.«172519_j3384434229585_1_alg».proof.Proof.Gen.KernelIdeal.Skeleton
import proofs.«172519_j3384434229585_1_alg».proof.Proof.Spec
import proofs.«172519_j3384434229585_1_alg».proof.Proof.LibBlockOps
import Idealize.ShloMosaic.Lib.ValueIdx
import Idealize.ShloMosaic.Lib.ValueLayout
import Idealize.ShloMosaic.Lib.Pipeline.Value
import Idealize.ShloMosaic.PureOps.Ideal.Laws

noncomputable section

namespace Cert.L2K

open Idealize.ShloMosaic Idealize.ShloMosaic.ValueIdx Cert.KernelIdeal Cert.KernelIdeal.Gen

/-- A scalar float constant at the extended reals is the word read exactly. -/
theorem scalar_ofBits (b : BitVec 32) : (Scalar.ofBits .f32 b : Ideal .f32) = Ideal.ofBits .f32 b := rfl

/-- On the left operand's first axis (not contracted) the operand index is the output's row. -/
theorem dot_lhs_0 (i : S512x2048.Idx) (c : dot_S512x128_S2048x128_S512x2048_1_1_0_0_n_n.contr.Idx) :
    (dot_S512x128_S2048x128_S512x2048_1_1_0_0_n_n.lhsIdx i c 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl

/-- On the right operand's first axis (not contracted) the operand index is the output's column. -/
theorem dot_rhs_0 (i : S512x2048.Idx) (c : dot_S512x128_S2048x128_S512x2048_1_1_0_0_n_n.contr.Idx) :
    (dot_S512x128_S2048x128_S512x2048_1_1_0_0_n_n.rhsIdx i c 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl

/-- The matrix product into the zero array, read at `(p, q)`: both operands are contracted along their second axis, so
the entry is the sum over `k` of row `p` of the left operand times row `q` of the right operand. -/
theorem dot_apply (A : FVec Ideal S512x128 .bf16) (B : FVec Ideal S2048x128 .bf16) (p : Fin 512) (q : Fin 2048) :
    matmul dot_S512x128_S2048x128_S512x2048_1_1_0_0_n_n none A B (constant (F := Ideal) S512x2048 .f32 0x00000000#32) (ix2 p q)
      = ∑ k : Fin 128, A (ix2 p k) * B (ix2 q k) := by
  refine (Ideal.matmul_constant_zero_apply dot_S512x128_S2048x128_S512x2048_1_1_0_0_n_n none A B (ix2 p q)).trans ?_
  rw [← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p q) ((contrEquiv1 dot_S512x128_S2048x128_S512x2048_1_1_0_0_n_n 128 rfl rfl).symm k) = ix2 p k := funext fun a => Fin.ext (by
    match a with
    | ⟨0, _⟩ => exact dot_lhs_0 _ _
    | ⟨1, _⟩ => exact (dot_S512x128_S2048x128_S512x2048_1_1_0_0_n_n.lhsIdx_val_of_single rfl _ _).trans hk)
  have er : dot_S512x128_S2048x128_S512x2048_1_1_0_0_n_n.rhsIdx (ix2 p q) ((contrEquiv1 dot_S512x128_S2048x128_S512x2048_1_1_0_0_n_n 128 rfl rfl).symm k) = ix2 q k := funext fun a => Fin.ext (by
    match a with
    | ⟨0, _⟩ => exact dot_rhs_0 _ _
    | ⟨1, _⟩ => exact (dot_S512x128_S2048x128_S512x2048_1_1_0_0_n_n.rhsIdx_val_of_single rfl _ _).trans hk)
  rw [el, er]

open Idealize.ShloMosaic Idealize.ShloMosaic.ValueIdx Cert.KernelIdeal in
/-- The stored block at the entry `(p, q)` is the specification's entry of row `p` of the query block, row `q` of the table
block and the entries `(0, q)` of the two row operands: it depends on nothing else of the four operands. -/
theorem pay_apply (X0 : Vec Ideal S512x128 .f32) (X1 : Vec Ideal S2048x128 .f32) (X2 X3 : Vec Ideal S1x2048 .f32) (p : Fin 512) (q : Fin 2048) :
    Cert.KernelIdeal.Gen.k0_pay1 (F := Ideal) X0 X1 X2 X3 (ix2 p q)
      = Cert.L2.entry (fun k => X0 (ix2 p k)) (fun k => X1 (ix2 q k)) (X2 (ix2 (0 : Fin 1) q)) (X3 (ix2 (0 : Fin 1) q)) := by
  unfold Cert.KernelIdeal.Gen.k0_pay1 Cert.L2.entry
  -- the three casts of an operand to its own shape are the identity
  simp only [shapeCast_self]
  -- the entrywise operations (sum, difference, product, maximum, square root, a splat scalar) read at the entry (p, q)
  simp only [addf_apply, subf_apply, mulf_apply, maximumf_apply, Cert.BlockOps.sqrtf_apply, broadcast_apply]
  -- the column of squared norms spread over the lanes reads its row p, which is the lane sum of row p of the squares;
  -- a row operand spread over the rows reads its entry (0, q); the matrix product reads ∑ k, (p, k) · (q, k)
  rw [Cert.BlockOps.broadcastTo_a1_ab_apply, Cert.BlockOps.shapeCast_a_a1_apply, Cert.BlockOps.laneSum_apply,
    broadcastTo_1b_ab_apply, broadcastTo_1b_ab_apply, dot_apply]
  -- the squares and the narrowed operands at an index; the zero word is 0 and 0 − d = −d; the word of 2.0 is the same
  -- word on both sides
  simp only [mulf_apply, truncf_apply, Ideal.ofBits_def, Ideal.ofBits_zero_f32, zero_sub]

end Cert.L2K

end
-- ==== Proof.OutIdx.lean ====
/-
  The output buffer after the body, read at one entry, over the extended reals: entry (p, q) of the stored block is
  the specification's entry of row p of the query buffer, row q of the table buffer and the entries (0, q) of the
  norms' and the bias's buffers. It depends on nothing else the four buffers hold — in particular on none of the
  words a cut fetch left past an array's end, as long as row q of the table and column q of the two rows lie
  inside.
-/
import proofs.«172519_j3384434229585_1_alg».proof.Proof.Body
import proofs.«172519_j3384434229585_1_alg».proof.Proof.PayIdx

noncomputable section

namespace Cert.KernelIdeal.Body

open Cert.KernelIdeal Cert.KernelIdeal.Gen
open Idealize.ShloMosaic Idealize.ShloMosaic.ValueIdx

theorem outBlk_apply (X0 : Vec Ideal S512x128 .f32) (X1 : Vec Ideal S2048x128 .f32) (X2 X3 : Vec Ideal S1x2048 .f32)
    (p : Fin 512) (q : Fin 2048) :
    outBlk (F := Ideal) X0 X1 X2 X3 (ix2 p q)
      = Cert.L2.entry (fun k => X0 (ix2 p k)) (fun k => X1 (ix2 q k)) (X2 (ix2 (0 : Fin 1) q)) (X3 (ix2 (0 : Fin 1) q)) := by
  rw [outBlk_eq]; exact Cert.L2K.pay_apply X0 X1 X2 X3 p q

end Cert.KernelIdeal.Body

end
-- ==== Proof.Exact.lean ====
/-
  The body obligation with the output NAMED, over the extended reals, and the run to the arrays' final contents.

  At a point whose table, norms, bias and output blocks are cut, the body computes the whole [512, 2048] block from
  buffers whose tails hold words nothing names. The entry (p, q) of the block reads only row q of the table buffer
  and column q of the two row buffers; the output's cut keeps the columns q below the cut width, which is the same
  width at which the table's rows and the rows' columns were cut. So on the part of the output block that is
  written back, the block is the same function of the blocks inside the arrays whatever the tails hold: that is
  all the obligation asks of a cut window.
-/
import proofs.«172519_j3384434229585_1_alg».proof.Proof.Data
import proofs.«172519_j3384434229585_1_alg».proof.Proof.OutIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cuts agree -/

/-- At every grid point the table's rows, the norms' columns and the bias's columns are cut at the width the
    output's columns are cut at, and the other axes are not cut. -/
theorem cut_widths : ∀ t : Fin cfg0.N,
    win0_1.xsize (grid0.coords t) 0 = win0_4.xsize (grid0.coords t) 1 ∧ win0_1.xsize (grid0.coords t) 1 = 128
    ∧ win0_2.xsize (grid0.coords t) 0 = 1 ∧ win0_2.xsize (grid0.coords t) 1 = win0_4.xsize (grid0.coords t) 1
    ∧ win0_3.xsize (grid0.coords t) 0 = 1 ∧ win0_3.xsize (grid0.coords t) 1 = win0_4.xsize (grid0.coords t) 1 :=
  (by decide +kernel : ∀ t : Fin grid0.N,
    win0_1.xsize (grid0.coords t) 0 = win0_4.xsize (grid0.coords t) 1 ∧ win0_1.xsize (grid0.coords t) 1 = 128
    ∧ win0_2.xsize (grid0.coords t) 0 = 1 ∧ win0_2.xsize (grid0.coords t) 1 = win0_4.xsize (grid0.coords t) 1
    ∧ win0_3.xsize (grid0.coords t) 0 = 1 ∧ win0_3.xsize (grid0.coords t) 1 = win0_4.xsize (grid0.coords t) 1)

/-- On the part a transfer moves, a filled block does not depend on the filler. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The part of the output block that is written back is the same whatever the input buffers hold past their
    arrays' ends. -/
theorem cut_out (c : Dev nD) (t : Fin cfg0.N) (d1 : S2048x128.Idx → EReal) (d2 d3 : S1x2048.Idx → EReal) :
    win0_4.cut (grid0.coords t)
        (outBlk (F := Ideal) (iblk m c 0 t) (win0_1.fill (grid0.coords t) d1 (iblk m c 1 t))
          (win0_2.fill (grid0.coords t) d2 (iblk m c 2 t)) (win0_3.fill (grid0.coords t) d3 (iblk m c 3 t)))
      = win0_4.cut (grid0.coords t) (blkO m c t) := by
  funext y
  have hp : (y 0).val < 512 := lt_of_lt_of_le (y 0).isLt (win0_4.xsize_le (grid0.coords t) 0)
  have hq : (y 1).val < win0_4.xsize (grid0.coords t) 1 := (y 1).isLt
  have hq' : (y 1).val < 2048 := lt_of_lt_of_le (y 1).isLt (win0_4.xsize_le (grid0.coords t) 1)
  obtain ⟨h10, h11, h20, h21, h30, h31⟩ := cut_widths t
  have e : win0_4.xinj (grid0.coords t) y = ix2 (⟨(y 0).val, hp⟩ : Fin 512) (⟨(y 1).val, hq'⟩ : Fin 2048) :=
    funext fun a => Fin.ext (by match a with | ⟨0, _⟩ => rfl | ⟨1, _⟩ => rfl)
  show outBlk (F := Ideal) _ _ _ _ (win0_4.xinj (grid0.coords t) y) = blkO m c t (win0_4.xinj (grid0.coords t) y)
  rw [e]; unfold blkO; rw [outBlk_apply, outBlk_apply]
  have e1 : (fun k : Fin 128 => win0_1.fill (grid0.coords t) d1 (iblk m c 1 t) (ix2 (⟨(y 1).val, hq'⟩ : Fin 2048) k))
      = fun k : Fin 128 => blkT m c t (ix2 (⟨(y 1).val, hq'⟩ : Fin 2048) k) := funext fun k =>
    fill_eq_of_moved win0_1 _ _ _ _ ((win0_1.moved_iff _ _).mpr fun a => by
      match a with
      | ⟨0, _⟩ => show (y 1).val < win0_1.xsize (grid0.coords t) 0; rw [h10]; exact hq
      | ⟨1, _⟩ => show k.val < win0_1.xsize (grid0.coords t) 1; rw [h11]; exact k.isLt)
  have e2 : win0_2.fill (grid0.coords t) d2 (iblk m c 2 t) (ix2 (0 : Fin 1) (⟨(y 1).val, hq'⟩ : Fin 2048))
      = blkN m c t (ix2 (0 : Fin 1) (⟨(y 1).val, hq'⟩ : Fin 2048)) :=
    fill_eq_of_moved win0_2 _ _ _ _ ((win0_2.moved_iff _ _).mpr fun a => by
      match a with
      | ⟨0, _⟩ => show 0 < win0_2.xsize (grid0.coords t) 0; rw [h20]; exact Nat.one_pos
      | ⟨1, _⟩ => show (y 1).val < win0_2.xsize (grid0.coords t) 1; rw [h21]; exact hq)
  have e3 : win0_3.fill (grid0.coords t) d3 (iblk m c 3 t) (ix2 (0 : Fin 1) (⟨(y 1).val, hq'⟩ : Fin 2048))
      = blkB m c t (ix2 (0 : Fin 1) (⟨(y 1).val, hq'⟩ : Fin 2048)) :=
    fill_eq_of_moved win0_3 _ _ _ _ ((win0_3.moved_iff _ _).mpr fun a => by
      match a with
      | ⟨0, _⟩ => show 0 < win0_3.xsize (grid0.coords t) 0; rw [h30]; exact Nat.one_pos
      | ⟨1, _⟩ => show (y 1).val < win0_3.xsize (grid0.coords t) 1; rw [h31]; exact hq)
  rw [e1, e2, e3]

/-! ## The body obligation, the output named -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: every cut window stated on the part inside its array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (blkT m c t)))
    rw [cut_blkT]
  isplitl [H2]
  · iexists d2
    change _ ⊢ owns (c : Thread nD τ) (st0_2 t) fullShare (win0_2.fill (grid0.coords t) d2 (win0_2.cut (grid0.coords t) (blkN m c t)))
    rw [cut_blkN]
  isplitl [H3]
  · iexists d3
    change _ ⊢ owns (c : Thread nD τ) (st0_3 t) fullShare (win0_3.fill (grid0.coords t) d3 (win0_3.cut (grid0.coords t) (blkB m c t)))
    rw [cut_blkB]
  · iexists (outBlk (F := Ideal) (iblk m c 0 t) (win0_1.fill (grid0.coords t) d1 (iblk m c 1 t))
      (win0_2.fill (grid0.coords t) d2 (iblk m c 2 t)) (win0_3.fill (grid0.coords t) d3 (iblk m c 3 t)))
    change _ ⊢ owns (c : Thread nD τ) (st0_4 t) fullShare (win0_4.fill (grid0.coords t) _ (win0_4.cut (grid0.coords t) (blkO m c t)))
    rw [win0_4.fill_congr_cut (grid0.coords t) (cut_out m c t d1 d2 d3)]

/-- The library's body obligation, at every point. -/
theorem body_obligation (c : Dev nD) :
    BodyObligationLoose (dats (F := Ideal) m 0 c) (defs₀ (F := Ideal)) Variants.none () Set.univ := fun t => by
  rw [bigSep_W0, bigSep_W0]
  exact sound_body m c t

/-! ## The run -/

set_option backward.isDefEq.respectTransparency.types false in
/-- For any extended-real values, from any memory with zero counters: every weakly fair execution of the program
    terminates, every array of the pipeline ends at what the write-backs of the named blocks make of it, and every
    other unscoped buffer at what the line after the region makes of what the region found. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

end Cert.KernelIdeal.Body

end
-- ==== Proof.Blocks.lean ====
/-
  From blocks to the array, over the extended reals.

  The output's blocks are [512, 2048]; grid point t = (i, j) = (t / 10, t % 10) writes back rows 512·i … and columns
  2048·j … of the flat result. 20001 = 9·2048 + 1569: at j = 9 the block overhangs the array and only its first 1569
  columns are written back. What a point writes back is, entry by entry, the specification's entry of the query row,
  the table row, that row's squared norm and its bias: the entry of the output buffer at (p, q) reads row p of the
  query block, row q of the table block and the entries (0, q) of the norms' and bias's blocks, and for an entry
  that is written back these all lie inside their arrays, at row 512·i + p of the queries and at row (column)
  2048·j + q of the table (the norms, the bias). So every point writes back its block of ONE function of the four
  arrays, the flat specification; every index of the result lies in the block of the point (r / 512, v / 2048);
  hence the result ends holding the flat specification.
-/
import proofs.«172519_j3384434229585_1_alg».proof.Proof.Data
import proofs.«172519_j3384434229585_1_alg».proof.Proof.OutIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-! ## The printed index maps and cuts, decided once over the forty grid points -/

/-- The grid has forty points. -/
theorem N_eq : cfg0.N = 40 := by decide

/-- Block indices: the output's are (t / 10, t % 10); the queries' (t / 10, 0); the table's (t % 10, 0); the norms'
    and the bias's (0, t % 10). -/
theorem idx_facts : ∀ t : Fin cfg0.N,
    win0_4.index t (0 : Fin 2) = t.val / 10 ∧ win0_4.index t (1 : Fin 2) = t.val % 10
    ∧ win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = 0 ∧ win0_2.index t (1 : Fin 2) = t.val % 10
    ∧ win0_3.index t (0 : Fin 2) = 0 ∧ win0_3.index t (1 : Fin 2) = t.val % 10 :=
  (by decide +kernel : ∀ t : Fin grid0.N, _)

/-- Cut sizes: the long axis of the table, the norms, the bias and the output is cut to 1569 at t % 10 = 9 and
    whole elsewhere; every other axis is whole. -/
theorem size_facts : ∀ t : Fin cfg0.N,
    win0_4.xsize (grid0.coords t) (0 : Fin 2) = 512
    ∧ win0_4.xsize (grid0.coords t) (1 : Fin 2) = (if t.val % 10 = 9 then 1569 else 2048)
    ∧ win0_1.xsize (grid0.coords t) (0 : Fin 2) = (if t.val % 10 = 9 then 1569 else 2048)
    ∧ win0_1.xsize (grid0.coords t) (1 : Fin 2) = 128
    ∧ win0_2.xsize (grid0.coords t) (0 : Fin 2) = 1
    ∧ win0_2.xsize (grid0.coords t) (1 : Fin 2) = (if t.val % 10 = 9 then 1569 else 2048)
    ∧ win0_3.xsize (grid0.coords t) (0 : Fin 2) = 1
    ∧ win0_3.xsize (grid0.coords t) (1 : Fin 2) = (if t.val % 10 = 9 then 1569 else 2048) :=
  (by decide +kernel : ∀ t : Fin grid0.N, _)

/-! ## Reading a block, entry by entry -/

/-- Inside the part a cut transfer moves, a filled block is the block read there. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The query block at point `t`, entry (p, k): row 512·(t / 10) + p of the flat queries. -/
theorem iblk0_apply (c : Dev nD) (t : Fin cfg0.N) (p : Fin 512) (hp : t.val / 10 * 512 + p.val < 2048) (k : Fin 128) :
    iblk m c 0 t (ix2 p k) = V m c main_v0 (ix2 ⟨t.val / 10 * 512 + p.val, hp⟩ k) := by
  obtain ⟨-, -, e0, e1, -⟩ := idx_facts t
  show V m c main_v0 ((win0_0.blk t).view.emb (ix2 p k)) = _
  refine congrArg (V m c main_v0) ?_
  funext a; apply Fin.ext
  match a with
  | ⟨0, _⟩ => show win0_0.index t (0 : Fin 2) * 512 + 1 * p.val = t.val / 10 * 512 + p.val; rw [e0]; omega
  | ⟨1, _⟩ => show win0_0.index t (1 : Fin 2) * 128 + 1 * k.val = k.val; rw [e1]; omega

/-- The table's filled block at point `t`, entry (q, k), for a row inside the table: row 2048·(t % 10) + q. -/
theorem blkT_apply (c : Dev nD) (t : Fin cfg0.N) (q : Fin 2048) (hq : t.val % 10 * 2048 + q.val < 20001) (k : Fin 128) :
    blkT m c t (ix2 q k) = V m c main_arg1 (ix2 ⟨t.val % 10 * 2048 + q.val, hq⟩ k) := by
  obtain ⟨-, -, -, -, e0, e1, -⟩ := idx_facts t
  obtain ⟨-, -, s0, s1, -⟩ := size_facts t
  have hq' := q.isLt
  have h : ∀ a, ((ix2 q k : S2048x128.Idx) a).val < win0_1.xsize (grid0.coords t) a := fun a => by
    match a with
    | ⟨0, _⟩ => show q.val < win0_1.xsize (grid0.coords t) (0 : Fin 2); rw [s0]; split <;> omega
    | ⟨1, _⟩ => show k.val < win0_1.xsize (grid0.coords t) (1 : Fin 2); rw [s1]; exact k.isLt
  unfold blkT
  refine (fill_apply_of_lt win0_1 (grid0.coords t) _ _ (ix2 q k) h).trans ?_
  show V m c main_arg1 ((win0_1.blk t).view.emb _) = _
  refine congrArg (V m c main_arg1) ?_
  funext a; apply Fin.ext
  match a with
  | ⟨0, _⟩ => show win0_1.index t (0 : Fin 2) * 2048 + 1 * q.val = t.val % 10 * 2048 + q.val; rw [e0]; omega
  | ⟨1, _⟩ => show win0_1.index t (1 : Fin 2) * 128 + 1 * k.val = k.val; rw [e1]; omega

/-- The norms' filled block at point `t`, entry (0, q), for a column inside the row: column 2048·(t % 10) + q. -/
theorem blkN_apply (c : Dev nD) (t : Fin cfg0.N) (q : Fin 2048) (hq : t.val % 10 * 2048 + q.val < 20001) :
    blkN m c t (ix2 (0 : Fin 1) q) = V m c main_v5 (ix2 (0 : Fin 1) ⟨t.val % 10 * 2048 + q.val, hq⟩) := by
  obtain ⟨-, -, -, -, -, -, e0, e1, -⟩ := idx_facts t
  obtain ⟨-, -, -, -, s0, s1, -⟩ := size_facts t
  have hq' := q.isLt
  have h : ∀ a, ((ix2 (0 : Fin 1) q : S1x2048.Idx) a).val < win0_2.xsize (grid0.coords t) a := fun a => by
    match a with
    | ⟨0, _⟩ => show 0 < win0_2.xsize (grid0.coords t) (0 : Fin 2); rw [s0]; omega
    | ⟨1, _⟩ => show q.val < win0_2.xsize (grid0.coords t) (1 : Fin 2); rw [s1]; split <;> omega
  unfold blkN
  refine (fill_apply_of_lt win0_2 (grid0.coords t) _ _ (ix2 (0 : Fin 1) q) h).trans ?_
  show V m c main_v5 ((win0_2.blk t).view.emb _) = _
  refine congrArg (V m c main_v5) ?_
  funext a; apply Fin.ext
  match a with
  | ⟨0, _⟩ => show win0_2.index t (0 : Fin 2) * 1 + 1 * 0 = 0; rw [e0]
  | ⟨1, _⟩ => show win0_2.index t (1 : Fin 2) * 2048 + 1 * q.val = t.val % 10 * 2048 + q.val; rw [e1]; omega

/-- The bias's filled block at point `t`, entry (0, q), for a column inside the row: column 2048·(t % 10) + q. -/
theorem blkB_apply (c : Dev nD) (t : Fin cfg0.N) (q : Fin 2048) (hq : t.val % 10 * 2048 + q.val < 20001) :
    blkB m c t (ix2 (0 : Fin 1) q) = V m c main_v1 (ix2 (0 : Fin 1) ⟨t.val % 10 * 2048 + q.val, hq⟩) := by
  obtain ⟨-, -, -, -, -, -, -, -, e0, e1⟩ := idx_facts t
  obtain ⟨-, -, -, -, -, -, s0, s1⟩ := size_facts t
  have hq' := q.isLt
  have h : ∀ a, ((ix2 (0 : Fin 1) q : S1x2048.Idx) a).val < win0_3.xsize (grid0.coords t) a := fun a => by
    match a with
    | ⟨0, _⟩ => show 0 < win0_3.xsize (grid0.coords t) (0 : Fin 2); rw [s0]; omega
    | ⟨1, _⟩ => show q.val < win0_3.xsize (grid0.coords t) (1 : Fin 2); rw [s1]; split <;> omega
  unfold blkB
  refine (fill_apply_of_lt win0_3 (grid0.coords t) _ _ (ix2 (0 : Fin 1) q) h).trans ?_
  show V m c main_v1 ((win0_3.blk t).view.emb _) = _
  refine congrArg (V m c main_v1) ?_
  funext a; apply Fin.ext
  match a with
  | ⟨0, _⟩ => show win0_3.index t (0 : Fin 2) * 1 + 1 * 0 = 0; rw [e0]
  | ⟨1, _⟩ => show win0_3.index t (1 : Fin 2) * 2048 + 1 * q.val = t.val % 10 * 2048 + q.val; rw [e1]; omega

/-- The output's buffer after the body at point `t`, entry (p, q): the specification's entry of row p of the query
    block, row q of the table's filled block and the entries (0, q) of the norms' and the bias's. -/
theorem blkO_apply (c : Dev nD) (t : Fin cfg0.N) (p : Fin 512) (q : Fin 2048) :
    blkO m c t (ix2 p q)
      = Cert.L2.entry (fun k => iblk m c 0 t (ix2 p k)) (fun k => blkT m c t (ix2 q k))
          (blkN m c t (ix2 (0 : Fin 1) q)) (blkB m c t (ix2 (0 : Fin 1) q)) := by
  unfold blkO; exact outBlk_apply _ _ _ _ p q

/-! ## What a point writes back -/

/-- The flat specification of the four arrays as the region finds them. -/
abbrev Gflat (c : Dev nD) : S2048x20001.Idx → EReal :=
  Cert.L2.flat (V m c main_v0) (V m c main_arg1) (V m c main_v5) (V m c main_v1)

/-- Its entry (r, v). -/
theorem Gflat_ix2 (c : Dev nD) (r : Fin 2048) (v : Fin 20001) :
    Gflat m c (ix2 r v)
      = Cert.L2.entry (fun k => V m c main_v0 (ix2 r k)) (fun k => V m c main_arg1 (ix2 v k))
          (V m c main_v5 (ix2 (0 : Fin 1) v)) (V m c main_v1 (ix2 (0 : Fin 1) v)) :=
  Cert.L2.flat_ix2 _ _ _ _ r v

/-- Point `t` writes back its block, cut at the array's end, of the flat specification. -/
theorem flushed_eq (c : Dev nD) (t : Fin cfg0.N) :
    (dats (F := Ideal) m 0 c).flushed 4 t = ((cfg0.win 4).blk t).view.read (Elt Ideal) (Gflat m c) := by
  obtain ⟨e0, e1, -⟩ := idx_facts t
  obtain ⟨s0, s1, -⟩ := size_facts t
  have ht : t.val < 40 := N_eq ▸ t.isLt
  funext y
  have hy0 : (y 0).val < win0_4.xsize (grid0.coords t) (0 : Fin 2) := (y 0).isLt
  have hy1 : (y 1).val < win0_4.xsize (grid0.coords t) (1 : Fin 2) := (y 1).isLt
  rw [s0] at hy0; rw [s1] at hy1
  have hq : t.val % 10 * 2048 + (y 1).val < 20001 := by split at hy1 <;> omega
  have hq' : (y 1).val < 2048 := by split at hy1 <;> omega
  have hp : t.val / 10 * 512 + (y 0).val < 2048 := by omega
  have ex : win0_4.xinj (grid0.coords t) y = ix2 (⟨(y 0).val, hy0⟩ : Fin 512) (⟨(y 1).val, hq'⟩ : Fin 2048) := by
    funext a
    match a with
    | ⟨0, _⟩ => rfl
    | ⟨1, _⟩ => rfl
  have ee : (win0_4.blk t).view.emb y
      = ix2 (⟨t.val / 10 * 512 + (y 0).val, hp⟩ : Fin 2048) (⟨t.val % 10 * 2048 + (y 1).val, hq⟩ : Fin 20001) := by
    funext a; apply Fin.ext
    match a with
    | ⟨0, _⟩ => show win0_4.index t (0 : Fin 2) * 512 + 1 * (y 0).val = t.val / 10 * 512 + (y 0).val; rw [e0]; omega
    | ⟨1, _⟩ => show win0_4.index t (1 : Fin 2) * 2048 + 1 * (y 1).val = t.val % 10 * 2048 + (y 1).val; rw [e1]; omega
  show (dats m 0 c).after 4 t (win0_4.xinj (grid0.coords t) y) = Gflat m c ((win0_4.blk t).view.emb y)
  rw [ex, ee, after0_4, blkO_apply, Gflat_ix2]
  rw [funext fun k => iblk0_apply m c t _ hp k, funext fun k => blkT_apply m c t _ hq k, blkN_apply m c t _ hq,
    blkB_apply m c t _ hq]

/-! ## Every index of the result lies in some point's block -/

/-- An index of the result is in point `t`'s block iff each coordinate is in the block's range, cut at the array's
    end. -/
theorem mem_blk (t : Fin cfg0.N) (i : S2048x20001.Idx) :
    i ∈ ((cfg0.win 4).blk t).view.set
      ↔ ∀ a : Fin 2, win0_4.index t a * S512x2048.size a ≤ (i a).val
          ∧ (i a).val < win0_4.index t a * S512x2048.size a + win0_4.xsize (grid0.coords t) a := by
  show i ∈ ((View.whole main_v6).slice (win0_4.rect t)).set ↔ _
  rw [View.set_slice_whole, Rect.mem_set_unit]
  exact Iff.rfl

/-- The point whose block holds entry (r, v): (r / 512, v / 2048). -/
def cover (r : Fin 2048) (v : Fin 20001) : Fin cfg0.N :=
  ⟨10 * (r.val / 512) + v.val / 2048, by rw [N_eq]; have := r.isLt; have := v.isLt; omega⟩

theorem mem_cover (r : Fin 2048) (v : Fin 20001) :
    (ix2 r v : S2048x20001.Idx) ∈ ((cfg0.win 4).blk (cover r v)).view.set := by
  obtain ⟨e0, e1, -⟩ := idx_facts (cover r v)
  obtain ⟨s0, s1, -⟩ := size_facts (cover r v)
  have hr := r.isLt
  have hv := v.isLt
  have tv : (cover r v).val = 10 * (r.val / 512) + v.val / 2048 := rfl
  rw [mem_blk]
  intro a
  match a with
  | ⟨0, _⟩ =>
    show win0_4.index (cover r v) (0 : Fin 2) * 512 ≤ r.val
      ∧ r.val < win0_4.index (cover r v) (0 : Fin 2) * 512 + win0_4.xsize (grid0.coords (cover r v)) (0 : Fin 2)
    rw [e0, s0, tv]; omega
  | ⟨1, _⟩ =>
    show win0_4.index (cover r v) (1 : Fin 2) * 2048 ≤ v.val
      ∧ v.val < win0_4.index (cover r v) (1 : Fin 2) * 2048 + win0_4.xsize (grid0.coords (cover r v)) (1 : Fin 2)
    rw [e1, s1, tv]; split <;> omega

/-! ## The result -/

/-- The flat result ends holding the flat specification of the four arrays as the region finds them. -/
theorem final6_apply (c : Dev nD) (r : Fin 2048) (v : Fin 20001) :
    (dats (F := Ideal) m 0 c).arrAt 4 cfg0.N (ix2 r v)
      = Cert.L2.flat (V m c main_v0) (V m c main_arg1) (V m c main_v5) (V m c main_v1) (ix2 r v) :=
  (dats (F := Ideal) m 0 c).arrAt_apply_of_mem 4 (Gflat m c) (fun t _ => flushed_eq m c t) cfg0.N (cover r v) (ix2 r v)
    (cover r v).isLt (flush0_4 _) (mem_cover r v)

end Cert.KernelIdeal.Body

end
-- ==== Proof.HostGlue.lean ====
/-
  The host operations of the kernel program around its one region, read at an index over the extended reals.

  Before the region the program flattens the queries [16, 128, 128] to the matrix [2048, 128] (row 128·b + s is
  query (b, s)), drops the two leading unit axes of the bias [1, 1, 20001] to the row [1, 20001], and computes the
  row of squared norms of the table [20001, 128]: the entrywise square, the sum along each row from the zero word,
  that vector [20001] written as a column [20001, 1] and the column re-read as the row [1, 20001]. After the region
  it reads the flat result [2048, 20001] back as [16, 128, 20001]. Each of these is a re-indexing, except the row
  sum, which over the extended reals is 0 + ∑ₖ e(v, k)·e(v, k) = ∑ₖ e(v, k)·e(v, k): no finiteness is used.
-/
import proofs.«172519_j3384434229585_1_alg».proof.Proof.Gen.KernelIdeal.Frame
import proofs.«172519_j3384434229585_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.L2H

open Idealize.ShloMosaic Idealize.ShloMosaic.TcCoe Idealize.ShloMosaic.ValueIdx Idealize.SL.Sem Cert.KernelIdeal Cert.KernelIdeal.Gen

/-! ## The re-indexings, over variables -/

section Layout
variable {α : Type}

/-- The queries flattened: row `128·b + s` of the matrix is query `(b, s)` (both sides sit at row-major position
    `(128·b + s)·128 + k`). -/
theorem flatten_queries_apply (x : S16x128x128.Idx → α) (h : S16x128x128.ShapeCasts S2048x128)
    (b : Fin 16) (s : Fin 128) (k : Fin 128) :
    shapeCast S2048x128 x h (ix2 (⟨128 * b.val + s.val, by omega⟩ : Fin 2048) k) = x (ix3 b s k) :=
  shapeCast_apply x h _ _ (by
    rw [Shape.rowMajor_val_three, Shape.rowMajor_val_two]
    show (b.val * 128 + s.val) * 128 + k.val = (128 * b.val + s.val) * 128 + k.val
    omega)

/-- The flat result read back by batch and row: entry `(b, s, v)` is entry `(128·b + s, v)` of the matrix. -/
theorem unflatten_result_apply (y : S2048x20001.Idx → α) (h : S2048x20001.ShapeCasts S16x128x20001)
    (b : Fin 16) (s : Fin 128) (v : Fin 20001) :
    shapeCast S16x128x20001 y h (ix3 b s v) = y (ix2 (⟨128 * b.val + s.val, by omega⟩ : Fin 2048) v) :=
  shapeCast_apply y h _ _ (by
    rw [Shape.rowMajor_val_three, Shape.rowMajor_val_two]
    show (128 * b.val + s.val) * 20001 + v.val = (b.val * 128 + s.val) * 20001 + v.val
    omega)

/-- A column [20001, 1] re-read as a row [1, 20001]: entry `(0, v)` of the row is entry `(v, 0)` of the column. -/
theorem column_as_row_apply (y : S20001x1.Idx → α) (h : S20001x1.ShapeCasts S1x20001) (v : Fin 20001) :
    shapeCast S1x20001 y h (ix2 (0 : Fin 1) v) = y (ix2 v (0 : Fin 1)) :=
  shapeCast_apply y h _ _ (by
    rw [Shape.rowMajor_val_two, Shape.rowMajor_val_two]
    show v.val * 1 + 0 = 0 * 20001 + v.val
    omega)

/-- A vector [20001] written as a column [20001, 1]: entry `(v, 0)` of the column is entry `v` of the vector. -/
theorem vector_as_column_apply (z : S20001.Idx → α) (h : S20001.BroadcastsInDim S20001x1 (![0] : Fin 1 → Fin S20001x1.rank))
    (v : Fin 20001) :
    broadcastInDim S20001x1 (![0] : Fin 1 → Fin S20001x1.rank) h z (ix2 v (0 : Fin 1)) = z (ix1 v) :=
  broadcastInDim_apply _ h z _ _ (fun a => match a with
    | ⟨0, _⟩ => by show v.val = if (20001 : Nat) = 1 then 0 else v.val; rw [if_neg (by decide)])

end Layout

/-! ## The arrays the region finds -/

variable (m : (ℓ : Loc nD τ sig) → Buf (Elt Ideal) ℓ)

/-- The flat query matrix the region finds: row `128·b + s` is query `(b, s)` of the first argument. -/
theorem V_v0_apply (c : Dev nD) (b : Fin 16) (s : Fin 128) (k : Fin 128) :
    V m c main_v0 (ix2 (⟨128 * b.val + s.val, by omega⟩ : Fin 2048) k) = m ((c : Thread nD τ).loc main_arg0) (ix3 b s k) := by
  have e : (V m c main_v0 : S2048x128.Idx → EReal)
      = shapeCast S2048x128 (m ((c : Thread nD τ).loc main_arg0)) shapeCasts_S16x128x128_S2048x128 := by
    show StableHlo.after hostOps0 (fun b => m (c, b)) (Proc.devRef .tc main_v0) = _
    after_results
    rfl
  exact (congrFun e _).trans (flatten_queries_apply _ _ b s k)

/-- The bias row the region finds: entry `(0, v)` is entry `(0, 0, v)` of the third argument. -/
theorem V_v1_apply (c : Dev nD) (v : Fin 20001) :
    V m c main_v1 (ix2 (0 : Fin 1) v) = m ((c : Thread nD τ).loc main_arg2) (ix3 (0 : Fin 1) (0 : Fin 1) v) := by
  have e : (V m c main_v1 : S1x20001.Idx → EReal)
      = shapeCast S1x20001 (m ((c : Thread nD τ).loc main_arg2)) shapeCasts_S1x1x20001_S1x20001 := by
    show StableHlo.after hostOps0 (fun b => m (c, b)) (Proc.devRef .tc main_v1) = _
    after_results
    rfl
  exact (congrFun e _).trans (shapeCast_1ab_ab_apply _ _ (0 : Fin 1) v)

/-- The host's sum along each row of a [20001, 128] array, started from the zero word: over the extended reals the
    word of 0.0 is `0` and `0 + s = s`, so entry `v` of the result is `∑ₖ y(v, k)`. -/
theorem row_sum_apply (y : (⟨S20001x128, .f32⟩ : BufTy).Contents (Elt Ideal)) (v : Fin 20001) :
    Host.reduceAdd (F := Ideal) y (constant (F := Ideal) S_ .f32 0x00000000#32) reducesTo_S20001x128_S20001_d1 h_S_ (ix1 v)
      = ∑ k : Fin 128, y (ix2 v k) := by
  simp only [Host.reduceAdd, Ideal.hostReduceAdd_def]
  rw [Ideal.hostReduceAdd_single reducesTo_S20001x128_S20001_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The row of squared norms the region finds: entry `(0, v)` is `∑ₖ e(v, k)·e(v, k)` over row `v` of the table (the
    second argument): the row is the column of the vector of row sums of the entrywise square. -/
theorem V_v5_apply (c : Dev nD) (v : Fin 20001) :
    V m c main_v5 (ix2 (0 : Fin 1) v) = Cert.L2.sqnorm (fun k => m ((c : Thread nD τ).loc main_arg1) (ix2 v k)) := by
  have e : (V m c main_v5 : S1x20001.Idx → EReal)
      = shapeCast S1x20001 (broadcastInDim S20001x1 (![0] : Fin 1 → Fin S20001x1.rank) bcast_S20001_S20001x1_0
          (Host.reduceAdd (F := Ideal)
            (mulf (m ((c : Thread nD τ).loc main_arg1)) (m ((c : Thread nD τ).loc main_arg1)))
            (constant (F := Ideal) S_ .f32 0x00000000#32) reducesTo_S20001x128_S20001_d1 h_S_))
          shapeCasts_S20001x1_S1x20001 := by
    show StableHlo.after hostOps0 (fun b => m (c, b)) (Proc.devRef .tc main_v5) = _
    after_results
    rfl
  refine (congrFun e _).trans ?_
  rw [column_as_row_apply, vector_as_column_apply, row_sum_apply]
  rfl

/-! ## The result after the region -/

/-- The program's result: entry `(b, s, v)` is entry `(128·b + s, v)` of the flat array the region leaves (its output
    window's array once every block has been written back). -/
theorem tail_apply (dats : (p : Fin 1) → (c : Dev nD) → Idealize.ShloMosaic.Pipeline.Dat τ (Elt Ideal) Unit ℕ (UR sig nD τ) ℕ (cfgs p) c)
    (c : Dev nD) (b : Fin 16) (s : Fin 128) (v : Fin 20001) :
    Pipeline.afterTail₀ cfgs dats 0 (V0 m) [hostOps1] c main_v7 (ix3 b s v)
      = (dats 0 c).arrAt 4 cfg0.N (ix2 (⟨128 * b.val + s.val, by omega⟩ : Fin 2048) v) := by
  have e : (Pipeline.afterTail₀ cfgs dats 0 (V0 m) [hostOps1] c main_v7 : S16x128x20001.Idx → EReal)
      = shapeCast S16x128x20001 ((dats 0 c).arrAt 4 cfg0.N : S2048x20001.Idx → EReal) shapeCasts_S2048x20001_S16x128x20001 := by
    unfold Pipeline.afterTail₀
    show StableHlo.after hostOps1 _ (Proc.devRef .tc main_v7) = _
    after_results
    rw [Pipeline.withArrays_arr spec0 launch0.win.arr_inj c _ _ 4]
    rfl
  exact (congrFun e _).trans (unflatten_result_apply _ _ b s v)

end Cert.L2H

end
-- ==== Proof.Value.lean ====
/-
  The kernel program's run with its result named, over the extended reals.

  The region leaves the flat result [2048, 20001]: every entry lies in the block of exactly the grid point that
  covers its row and its column, and that block's entry is the specification's entry of the query row, the table
  row, the table row's squared norm and the bias the region found. The line after the region reads the flat result
  back as [16, 128, 20001]; the lines before it made the flat query matrix, the bias row and the row of squared
  norms out of the arguments. Chained, the program's result is the specification of its three arguments.
-/
import proofs.«172519_j3384434229585_1_alg».proof.Proof.Exact
import proofs.«172519_j3384434229585_1_alg».proof.Proof.Blocks
import proofs.«172519_j3384434229585_1_alg».proof.Proof.HostGlue

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The specification of core `c`'s three argument arrays as launched. -/
abbrev resultOf (c : Dev nD) : Buf (Elt Ideal) ((c : Thread nD τ).loc main_v7) :=
  Cert.L2.G (m ((c : Thread nD τ).loc main_arg0)) (m ((c : Thread nD τ).loc main_arg1)) (m ((c : Thread nD τ).loc main_arg2))

/-- The program's result buffer after the line that follows the region is the specification of the arguments. -/
theorem result_eq (c : Dev nD) :
    Pipeline.afterTail₀ cfgs (dats m) 0 (V0 m) [hostOps1] c main_v7 = resultOf m c := by
  funext i
  obtain ⟨b, s, v, rfl⟩ : ∃ (b : Fin 16) (s : Fin 128) (v : Fin 20001), i = ix3 b s v := ⟨i 0, i 1, i 2, eq_ix3 i⟩
  rw [Cert.L2H.tail_apply, final6_apply, Cert.L2.flat_ix2]
  show _ = Cert.L2.G _ _ _ (ix3 b s v)
  rw [Cert.L2.G_ix3]
  exact congr (congr (congr (congrArg Cert.L2.entry (funext fun k => Cert.L2H.V_v0_apply m c b s k))
    (funext fun k => congrFun (V_main_arg1 m c) (ix2 v k))) (Cert.L2H.V_v5_apply m c v)) (Cert.L2H.V_v1_apply m c v)

/-- For any extended-real values, from any memory with zero counters: every weakly fair execution of the program
    terminates with its result at the specification of the arguments, and the arguments as launched. -/
theorem kernel_run : θ_run defs (onTc (τ := τ) (main (F := Ideal))) ⟨m, fun _ => 0, ρ⟩ (fun r => ∀ c : Dev nD,
      r.2.mem ((c.tc : Thread nD τ).loc main_v7) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Body

end
-- ==== Proof.RefRead.lean ====
/- The reference's result, read one operation at a time, is the specification. -/
import proofs.«172519_j3384434229585_1_alg».proof.Proof.Gen.ReferenceIdeal.Read
import proofs.«172519_j3384434229585_1_alg».proof.Proof.Spec

noncomputable section

namespace Cert.L2R

open Idealize.ShloMosaic Idealize.ShloMosaic.ValueIdx Cert.ReferenceIdeal Cert.ReferenceIdeal.Read

/-! ## Where each operand is read

The result's entry at (b, s, v) reads the squared norm of query row (b, s) through two broadcasts and a sum over
the last axis, the squared norm of table row v through two broadcasts and a sum over the last axis, the inner
product of the two rows, and the bias at (0, 0, v). The index functions below are the compositions the stages
apply; each is the constructor the specification uses. -/

/-- The query row's squared norm at (b, s, v) sums the squares at (b, s, k). -/
theorem idx_xsq (b : Fin 16) (s : Fin 128) (v : Fin 20001) (k : Fin 128) :
    idx_main_v1 (idx_main_v2 (idx_main_v7 (ix3 b s v))) k = ix3 b s k :=
  funext fun a => Fin.ext (by match a with | ⟨0, _⟩ => rfl | ⟨1, _⟩ => rfl | ⟨2, _⟩ => rfl)

/-- The table row's squared norm at (b, s, v) sums the squares at (v, k). -/
theorem idx_esq (b : Fin 16) (s : Fin 128) (v : Fin 20001) (k : Fin 128) :
    idx_main_v4 (idx_main_v6 (idx_main_v8 (ix3 b s v))) k = ix2 v k :=
  funext fun a => Fin.ext (by match a with | ⟨0, _⟩ => rfl | ⟨1, _⟩ => rfl)

/-- The inner product at (b, s, v) reads the query at (b, s, k) … -/
theorem idx_dot_l (b : Fin 16) (s : Fin 128) (v : Fin 20001) (k : Fin 128) :
    lidx_main_v5 (ix3 b s v) k = ix3 b s k :=
  funext fun a => Fin.ext (by match a with | ⟨0, _⟩ => rfl | ⟨1, _⟩ => rfl | ⟨2, _⟩ => rfl)

/-- … and the table at (v, k). -/
theorem idx_dot_r (b : Fin 16) (s : Fin 128) (v : Fin 20001) (k : Fin 128) :
    ridx_main_v5 (ix3 b s v) k = ix2 v k :=
  funext fun a => Fin.ext (by match a with | ⟨0, _⟩ => rfl | ⟨1, _⟩ => rfl)

/-- The bias at (b, s, v) is read at (0, 0, v). -/
theorem idx_bias (b : Fin 16) (s : Fin 128) (v : Fin 20001) :
    idx_main_v17 (ix3 b s v) = ix3 0 0 v :=
  funext fun a => Fin.ext (by match a with | ⟨0, _⟩ => rfl | ⟨1, _⟩ => rfl | ⟨2, _⟩ => rfl)

/-! ## The reference is the specification -/

open Idealize.ShloMosaic Idealize.ShloMosaic.ValueIdx Cert.ReferenceIdeal in
/-- Entry by entry the reference computes −√(max(‖x‖² + ‖e‖² − 2·⟨x, e⟩, 0)) + bias, grouped exactly as the
    specification groups it; each squared norm arrives as 0 + ∑, and 0 + s = s holds at every extended real. -/
theorem ref_eq (x0 : (⟨S16x128x128, .f32⟩ : BufTy).Contents (Elt Ideal)) (x1 : (⟨S20001x128, .f32⟩ : BufTy).Contents (Elt Ideal)) (x2 : (⟨S1x1x20001, .f32⟩ : BufTy).Contents (Elt Ideal)) :
    Cert.ReferenceIdeal.Read.val_main_v18 (F := Ideal) x0 x1 x2 = Cert.L2.G x0 x1 x2 := by
  funext i
  obtain ⟨b, s, v, rfl⟩ : ∃ b s v, i = ix3 b s v := ⟨i 0, i 1, i 2, eq_ix3 i⟩
  rw [Cert.L2.G_ix3,
    val_main_v18_apply, val_main_v16_apply, val_main_v15_apply, val_main_v14_apply, val_main_v12_apply,
    val_main_v9_apply, val_main_v7_apply, val_main_v2_apply, val_main_v1_apply, val_main_cst_apply,
    val_main_v8_apply, val_main_v6_apply, val_main_v4_apply, val_main_cst_0_apply,
    val_main_v11_apply, val_main_v10_apply, val_main_cst_1_apply, val_main_v5_apply,
    val_main_v13_apply, val_main_cst_2_apply, val_main_v17_apply]
  simp only [val_main_v0_apply, val_main_v3_apply, idx_xsq, idx_esq, idx_dot_l, idx_dot_r, idx_bias,
    Ideal.ofBits_def, Ideal.addf_def, Ideal.subf_def, Ideal.mulf_def, Ideal.maximumf_def, Ideal.hostUnary_sqrt_def,
    Ideal.hostNegf_def, Ideal.negf_def, Ideal.ofBits_zero_f32, zero_add, Cert.L2.entry, Cert.L2.sqnorm]

end Cert.L2R

end
-- ==== Proof.lean ====
/-
  The certificate: a tiled kernel for the negated Euclidean distances from 2048 query rows to a table of 20001
  rows, plus a bias, against its plain reference, equal as extended reals entry by entry.

  Both programs compute, for query row x and table row e,   −√(max(‖x‖² + ‖e‖² − 2·⟨x, e⟩, 0)) + bias ,
  and both group it exactly so. The kernel differs from the reference in four ways, none of which changes an
  extended real: it narrows the operands of its matrix product to a shorter float format (the identity here); it
  receives ‖e‖² as an operand computed before the region by the same sum the reference uses; it spells the negation
  as 0 − d; and it works block by block on a 4 × 10 grid whose last column of blocks overhangs the table's 20001
  rows by 479, so that it computes on words nothing names — none of which reach the part of a block that is written
  back. The only laws used are 0 + s = s and 0 − d = −d, which hold at the infinities: the precondition is never
  opened.

  The frames of the kernel's two readings are the same proof at two float instances: the body loads four buffers
  whole and stores one whole, the pipeline around it is the library's, and for the frame the output window's
  contents are not named. The reference has no kernel: its frame is its run with the result dropped.
-/
import proofs.«172519_j3384434229585_1_alg».proof.Defs
import proofs.«172519_j3384434229585_1_alg».proof.Proof.Gen.Kernel
import proofs.«172519_j3384434229585_1_alg».proof.Proof.Gen.KernelIdeal
import proofs.«172519_j3384434229585_1_alg».proof.Proof.Gen.ReferenceIdeal
import proofs.«172519_j3384434229585_1_alg».proof.Proof.Gen.Pre_finite_inputs
import proofs.«172519_j3384434229585_1_alg».proof.Proof.Gen.ReferenceIdeal.Run
import proofs.«172519_j3384434229585_1_alg».proof.Proof.KFrameF
import proofs.«172519_j3384434229585_1_alg».proof.Proof.FrameF
import proofs.«172519_j3384434229585_1_alg».proof.Proof.Value
import proofs.«172519_j3384434229585_1_alg».proof.Proof.RefRead

noncomputable section

namespace Cert.Proof

open Idealize.ShloMosaic Idealize.ShloMosaic.TcCoe Idealize.SL.Sem

/-- The kernel as printed runs to the end, faults nowhere and leaves its arguments as launched. -/
theorem frame_k : Cert.frame_Kernel := fun m ρ _ => Cert.Kernel.Body.frame (F := Bits) m ρ

/-- So does its reading over the extended reals. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- Run from memories that agree on the arguments, both programs end with the specification of those arguments
    in their result buffers. -/
theorem algebraic : Cert.algebraic_KernelIdeal_ReferenceIdeal := by
  intro m ρ m' ρ' _ hagree
  refine ⟨_, Cert.KernelIdeal.Body.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v18_eq _ _ _).trans (Cert.L2R.ref_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
